-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S10000x256 .f32) (main_arg1 : IVec S2x320000 32) (main_arg2 : FVec F S256x512 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S512x256 : Shape := ⟨2, ![512, 256]⟩
abbrev S256x256 : Shape := ⟨2, ![256, 256]⟩
abbrev S1x256 : Shape := ⟨2, ![1, 256]⟩
abbrev S1000x256 : Shape := ⟨2, ![1000, 256]⟩

abbrev nBuf : Space → Nat
  | .hbm => 38
  | .vmem => 9
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S512x256, .f32⟩
  | .hbm, ⟨34, _⟩ => ⟨S256x256, .f32⟩
  | .hbm, ⟨35, _⟩ => ⟨S256x256, .f32⟩
  | .hbm, ⟨36, _⟩ => ⟨S1x256, .f32⟩
  | .hbm, ⟨37, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1000x256, .f32⟩
  | .local _ .vmem, ⟨8, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  transposes_S256x512_S512x256_1_0 : S256x512.Transposes [1, 0] S512x256
  slices_S512x256_S256x256_0_0 : S512x256.Slices ![0, 0] S256x256
  slices_S512x256_S256x256_256_0 : S512x256.Slices ![256, 0] S256x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x256.size a ≤ S10000x256.size a
  hwx0_5 : ∀ i : grid0.Coords, EltTy.bits .f32 = 32 ∨ (Rect.block (s := S10000x256) S1000x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x512 : Shape := ⟨2, ![256, 512]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩
abbrev S10000x512 : Shape := ⟨2, ![10000, 512]⟩
abbrev S512x256 : Shape := ⟨2, ![512, 256]⟩
abbrev S1x256 : Shape := ⟨2, ![1, 256]⟩

abbrev nBuf : Space → Nat
  | .hbm => 39
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x512, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S1x320000, .i32⟩
  | .hbm, ⟨7, _⟩ => ⟨S320000, .i32⟩
  | .hbm, ⟨8, _⟩ => ⟨S_, .i32⟩
  | .hbm, ⟨9, _⟩ => ⟨S320000, .i32⟩
  | .hbm, ⟨10, _⟩ => ⟨S320000, .i1⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S320000, .i32⟩
  | .hbm, ⟨15, _⟩ => ⟨S320000x1, .i32⟩
  | .hbm, ⟨16, _⟩ => ⟨S320000x256, .f32⟩
  | .hbm, ⟨17, _⟩ => ⟨S_, .f32⟩
  | .hbm, ⟨18, _⟩ => ⟨S10000x256, .f32⟩
  | .hbm, ⟨19, _⟩ => ⟨S320000x1, .i32⟩
  | .hbm, ⟨20, _⟩ => ⟨S10000x256, .f32⟩
  | .hbm, ⟨21, _⟩ => ⟨S_, .f32⟩
  | .hbm, ⟨22, _⟩ => ⟨S320000, .f32⟩
  | .hbm, ⟨23, _⟩ => ⟨S_, .f32⟩
  | .hbm, ⟨24, _⟩ => ⟨S10000, .f32⟩
  | .hbm, ⟨25, _⟩ => ⟨S320000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x256, .f32⟩
  | .hbm, ⟨32, _⟩ => ⟨S10000x256, .f32⟩
  | .hbm, ⟨33, _⟩ => ⟨S10000x512, .f32⟩
  | .hbm, ⟨34, _⟩ => ⟨S512x256, .f32⟩
  | .hbm, ⟨35, _⟩ => ⟨S10000x256, .f32⟩
  | .hbm, ⟨36, _⟩ => ⟨S1x256, .f32⟩
  | .hbm, ⟨37, _⟩ => ⟨S10000x256, .f32⟩
  | .hbm, ⟨38, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  concatenates_S10000x256_S10000x256_S10000x512_d1 : Shape.Concatenates [S10000x256, S10000x256] S10000x512 1
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.SageLinear.lean ====
/-
  The mathematics of a mean-aggregating graph layer's linear stage, over the extended reals.

  For node features `h`, aggregated neighbour features `agg` (both N × 256), a weight `W` (256 × 512)
  and a bias `b` (256), the layer's output at node `r` and channel `c` is

      (Σ_{k<256} h(r,k) · W(c,k)  +  Σ_{k<256} agg(r,k) · W(c,256+k))  +  b(c).

  This is the product of the row `[h(r,·) | agg(r,·)]` of length 512 with row `c` of `W`, the sum
  over the 512 columns cut at column 256. Cutting a finite sum in two uses only that addition on the
  extended reals is commutative and associative, so it holds at the infinities as well.
-/
import Idealize.ShloMosaic.PureOps.Ideal
import Idealize.ShloMosaic.Lib.ValueIdx

noncomputable section

namespace Cert.SageLinear

open Idealize.ShloMosaic Idealize.ShloMosaic.ValueIdx

/-- Column `k` of the left half of a 512-column row. -/
abbrev lo (k : Fin 256) : Fin 512 := ⟨k.val, by have := k.isLt; omega⟩

/-- Column `256 + k`: column `k` of the right half of a 512-column row. -/
abbrev hi (k : Fin 256) : Fin 512 := ⟨256 + k.val, by have := k.isLt; omega⟩

/-- The layer's linear stage, entry by entry: the self term, the neighbour term, the bias. -/
def linear (h agg : (⟨2, ![10000, 256]⟩ : Shape).Idx → EReal) (W : (⟨2, ![256, 512]⟩ : Shape).Idx → EReal)
    (b : (⟨1, ![256]⟩ : Shape).Idx → EReal) : (⟨2, ![10000, 256]⟩ : Shape).Idx → EReal := fun i =>
  ((∑ k : Fin 256, h (ix2 (i 0) k) * W (ix2 (i 1) (lo k)))
    + (∑ k : Fin 256, agg (ix2 (i 0) k) * W (ix2 (i 1) (hi k)))) + b (ix1 (i 1))

/-- A sum over 512 columns is the sum over the first 256 plus the sum over the last 256. -/
theorem sum_cut {M : Type} [AddCommMonoid M] (f : Fin 512 → M) :
    ∑ k : Fin 512, f k = (∑ k : Fin 256, f (lo k)) + ∑ k : Fin 256, f (hi k) :=
  Fin.sum_univ_add (a := 256) (b := 256) f

end Cert.SageLinear

end
-- ==== Proof.RefLinear.lean ====
/-
  The reference program's result, entry by entry, is the layer's linear stage `Cert.SageLinear.linear`
  of the features, the mean-aggregated neighbour features, the weight and the bias.

  The reference joins `h` and `agg` side by side into a 10000 × 512 array, multiplies by the transposed
  weight and adds the bias row. At entry (r, c) the product is a sum over 512 columns; the first 256
  columns of the joined array are `h`'s and the last 256 are `agg`'s, so cutting the sum at column 256
  gives the self term and the neighbour term.
-/
import proofs.«118493_j76476187673102_1_alg».proof.Proof.Gen.ReferenceIdeal.Read
import proofs.«118493_j76476187673102_1_alg».proof.Proof.SageLinear

noncomputable section

namespace Cert.ReferenceIdeal.RefValue

open Cert.ReferenceIdeal Cert.ReferenceIdeal.Gen Cert.ReferenceIdeal.Read
open Idealize.ShloMosaic Idealize.ShloMosaic.ValueIdx Cert.SageLinear

/-- A column in the left half of the joined array reads `h`. -/
theorem joined_lo (x0 : (⟨S10000x256, .f32⟩ : BufTy).Contents (Elt Ideal)) (x1 : (⟨S2x320000, .i32⟩ : BufTy).Contents (Elt Ideal))
    (i : S10000x256.Idx) (k : Fin 256) :
    val_main_v23 (F := Ideal) x0 x1 (lidx_main_v25 i (lo k)) = x0 (ix2 (i 0) k) := by
  unfold val_main_v23
  exact concatenate_pair_apply_left (t := S10000x512) (s₁ := S10000x256) (s₂ := S10000x256) (1 : Fin 2) x0
    (val_main_v22 (F := Ideal) x0 x1) concatenates_S10000x256_S10000x256_S10000x512_d1
    (lidx_main_v25 i (lo k)) rfl (ix2 (i 0) k) (fun b => match b with
      | ⟨0, _⟩ => rfl
      | ⟨1, _⟩ => rfl)

/-- A column in the right half of the joined array reads the aggregated features, 256 columns to the left. -/
theorem joined_hi (x0 : (⟨S10000x256, .f32⟩ : BufTy).Contents (Elt Ideal)) (x1 : (⟨S2x320000, .i32⟩ : BufTy).Contents (Elt Ideal))
    (i : S10000x256.Idx) (k : Fin 256) :
    val_main_v23 (F := Ideal) x0 x1 (lidx_main_v25 i (hi k)) = val_main_v22 (F := Ideal) x0 x1 (ix2 (i 0) k) := by
  unfold val_main_v23
  exact concatenate_pair_apply_right (t := S10000x512) (s₁ := S10000x256) (s₂ := S10000x256) (1 : Fin 2) x0
    (val_main_v22 (F := Ideal) x0 x1) concatenates_S10000x256_S10000x256_S10000x512_d1
    (lidx_main_v25 i (hi k)) rfl rfl (ix2 (i 0) k) (fun b => match b with
      | ⟨0, _⟩ => fun _ => rfl
      | ⟨1, _⟩ => fun h => absurd rfl h)
    (by show k.val + 256 = 256 + k.val; omega)

/-- The transposed weight at (k, c) is the weight at (c, k). -/
theorem weight_at (i : S10000x256.Idx) (k : Fin 512) : idx_main_v24 (ridx_main_v25 i k) = ix2 (i 1) k :=
  funext fun a => match a with
    | ⟨0, _⟩ => rfl
    | ⟨1, _⟩ => rfl

/-- The bias row repeated down the rows, at (r, c), is the bias at c. -/
theorem bias_at (i : S10000x256.Idx) : idx_main_v26 (idx_main_v27 i) = ix1 (i 1) :=
  funext fun a => match a with
    | ⟨0, _⟩ => rfl

/-- The reference's result is the linear stage of `h`, the aggregated features, `W` and `b`. -/
theorem result_eq (x0 : (⟨S10000x256, .f32⟩ : BufTy).Contents (Elt Ideal)) (x1 : (⟨S2x320000, .i32⟩ : BufTy).Contents (Elt Ideal))
    (x2 : (⟨S256x512, .f32⟩ : BufTy).Contents (Elt Ideal)) (x3 : (⟨S256, .f32⟩ : BufTy).Contents (Elt Ideal)) :
    val_main_v28 (F := Ideal) x0 x1 x2 x3 = linear x0 (val_main_v22 (F := Ideal) x0 x1) x2 x3 := by
  funext i
  rw [val_main_v28_apply, val_main_v25_apply, val_main_v27_apply, val_main_v26_apply, sum_cut]
  simp only [val_main_v24_apply, joined_lo, joined_hi, weight_at, bias_at, Ideal.addf_def]
  rfl

end Cert.ReferenceIdeal.RefValue

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.Tile.lean ====
/-
  One tile of the kernel: what the body stores, entry by entry, over the extended reals.

  The body loads a 1000 × 256 block of node features `x`, the matching block of aggregated features `a`,
  the two 256 × 256 halves `u`, `v` of the transposed weight and the bias row `β`, and stores

      (x · u + a · v) + β   (the bias row repeated down the 1000 rows).

  A change of float format is the identity on the extended reals and each product starts from the zero
  matrix, so entry (p, q) is  (Σ_k x(p,k)·u(k,q) + Σ_k a(p,k)·v(k,q)) + β(0,q).
-/
import proofs.«118493_j76476187673102_1_alg».proof.Proof.Gen.KernelIdeal.Skeleton
import proofs.«118493_j76476187673102_1_alg».proof.Proof.LibPlainMatmul
import proofs.«118493_j76476187673102_1_alg».proof.Proof.LibRows
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- Entry (p, q) of the stored tile. -/
theorem tile_at (x a : Vec Ideal S1000x256 .f32) (u v : Vec Ideal S256x256 .f32) (β : Vec Ideal S1x256 .f32)
    (p : Fin 1000) (q : Fin 256) :
    k0_pay1 (F := Ideal) x a u v β (ix2 p q)
      = ((∑ k : Fin 256, x (ix2 p k) * u (ix2 k q)) + (∑ k : Fin 256, a (ix2 p k) * v (ix2 k q))) + β (ix2 0 q) := by
  unfold k0_pay1
  rw [addf_apply, addf_apply, Cert.Rows.bcast_row (by decide) _ _ p q, shapeCast_self, shapeCast_self, shapeCast_self,
    shapeCast_self]
  have self_term := Cert.LibPlainMatmul.matmul_zero_apply dot_S1000x256_S256x256_S1000x256_1_0_0_1_n_n rfl rfl rfl rfl rfl rfl
    none (truncf .bf16 x bitsLt_bf16_f32) (truncf .bf16 u bitsLt_bf16_f32) p q
  have nbr_term := Cert.LibPlainMatmul.matmul_zero_apply dot_S1000x256_S256x256_S1000x256_1_0_0_1_n_n rfl rfl rfl rfl rfl rfl
    none (truncf .bf16 a bitsLt_bf16_f32) (truncf .bf16 v bitsLt_bf16_f32) p q
  exact congrArg₂ (· + ·) (congrArg₂ (· + ·) self_term nbr_term) rfl

end Cert.KernelIdeal.Tile

end
-- ==== Proof.Found.lean ====
/-
  The arrays the kernel's region finds, as functions of the program's arguments.

  Before the region the program computes the mean-aggregated neighbour features (the same chain of
  operations the reference runs: the region finds the reference's value), transposes the weight and
  cuts it into its top and bottom 256 rows, and recasts the bias as a row. Read at coordinates:
  the top half at (k, q) is W(q, k), the bottom half at (k, q) is W(q, 256 + k), the row at (0, q) is b(q).
-/
import proofs.«118493_j76476187673102_1_alg».proof.Proof.Gen.KernelIdeal.Frame
import proofs.«118493_j76476187673102_1_alg».proof.Proof.Gen.ReferenceIdeal.Read
import proofs.«118493_j76476187673102_1_alg».proof.Proof.SageLinear
import Idealize.ShloMosaic.Lib.StableHlo.Run
import Idealize.ShloMosaic.Lib.Pipeline.Value
import Idealize.ShloMosaic.Lib.ValueIdx

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx Cert.SageLinear

variable (m : (ℓ : Loc nD τ sig) → Buf (Elt Ideal) ℓ)

/-- The top half of the transposed weight, as the region finds it. -/
theorem top_eq (c : Dev nD) : (V m c main_v24 : S256x256.Idx → EReal)
    = extractStridedSlice S256x256 ![0, 0] (transpose S512x256 [1, 0] (m ((c : Thread nD τ).loc main_arg2)) transposes_S256x512_S512x256_1_0) slices_S512x256_S256x256_0_0 := by
  dsimp only [Gen.V, Gen.hostOps0]; after_results <;> rfl

/-- The bottom half of the transposed weight, as the region finds it. -/
theorem bottom_eq (c : Dev nD) : (V m c main_v25 : S256x256.Idx → EReal)
    = extractStridedSlice S256x256 ![256, 0] (transpose S512x256 [1, 0] (m ((c : Thread nD τ).loc main_arg2)) transposes_S256x512_S512x256_1_0) slices_S512x256_S256x256_256_0 := by
  dsimp only [Gen.V, Gen.hostOps0]; after_results <;> rfl

/-- The bias as a row, as the region finds it. -/
theorem row_eq (c : Dev nD) : (V m c main_v26 : S1x256.Idx → EReal)
    = shapeCast S1x256 (m ((c : Thread nD τ).loc main_arg3)) shapeCasts_S256_S1x256 := by
  dsimp only [Gen.V, Gen.hostOps0]; after_results <;> rfl

/-- The top half at (k, q) is the weight at (q, k). -/
theorem top_at (c : Dev nD) (k q : Fin 256) :
    (V m c main_v24 : S256x256.Idx → EReal) (ix2 k q) = (m ((c : Thread nD τ).loc main_arg2) : S256x512.Idx → EReal) (ix2 q (lo k)) := by
  rw [top_eq]
  refine (extractStridedSlice_apply ![0, 0] _ slices_S512x256_S256x256_0_0 (ix2 k q) (ix2 (lo k) q) (fun a => match a with
    | ⟨0, _⟩ => by show k.val = 0 + k.val; omega
    | ⟨1, _⟩ => by show q.val = 0 + q.val; omega)).trans ?_
  exact transpose_apply [1, 0] _ transposes_S256x512_S512x256_1_0 (ix2 (lo k) q) (ix2 q (lo k)) (fun b => match b with
    | ⟨0, _⟩ => rfl
    | ⟨1, _⟩ => rfl)

/-- The bottom half at (k, q) is the weight at (q, 256 + k). -/
theorem bottom_at (c : Dev nD) (k q : Fin 256) :
    (V m c main_v25 : S256x256.Idx → EReal) (ix2 k q) = (m ((c : Thread nD τ).loc main_arg2) : S256x512.Idx → EReal) (ix2 q (hi k)) := by
  rw [bottom_eq]
  refine (extractStridedSlice_apply ![256, 0] _ slices_S512x256_S256x256_256_0 (ix2 k q) (ix2 (hi k) q) (fun a => match a with
    | ⟨0, _⟩ => by show 256 + k.val = 256 + k.val; rfl
    | ⟨1, _⟩ => by show q.val = 0 + q.val; omega)).trans ?_
  exact transpose_apply [1, 0] _ transposes_S256x512_S512x256_1_0 (ix2 (hi k) q) (ix2 q (hi k)) (fun b => match b with
    | ⟨0, _⟩ => rfl
    | ⟨1, _⟩ => rfl)

/-- The bias row at (0, q) is the bias at q. -/
theorem row_at (c : Dev nD) (q : Fin 256) :
    (V m c main_v26 : S1x256.Idx → EReal) (ix2 0 q) = (m ((c : Thread nD τ).loc main_arg3) : S256.Idx → EReal) (ix1 q) := by
  rw [row_eq]
  exact shapeCast_apply _ shapeCasts_S256_S1x256 (ix2 0 q) (ix1 q) (by
    rw [Shape.rowMajor_val_one, Shape.rowMajor_val_two]; show q.val = 0 * 256 + q.val; omega)

end Cert.KernelIdeal.Found

end
-- ==== Proof.Agg.lean ====
/-
  The aggregated neighbour features the kernel's region finds are the reference's.

  Both programs compute the mean aggregation by the same chain of operations on the same two arguments
  (the node features and the edge list): wrap negative source indices, gather the source rows, add them
  into the target rows, count the edges per target row, and divide by the count or by one. The chain is
  never opened: the two programs' spellings of it are one term.
-/
import proofs.«118493_j76476187673102_1_alg».proof.Proof.Gen.KernelIdeal.Frame
import proofs.«118493_j76476187673102_1_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 400000 in
/-- The aggregated features, as the region finds them, are the reference's stage of the same arguments. -/
theorem agg_eq (c : Dev nD) : (V m c main_v22 : S10000x256.Idx → EReal)
    = Cert.ReferenceIdeal.Read.val_main_v22 (F := Ideal) (m ((c : Thread nD τ).loc main_arg0)) (m ((c : Thread nD τ).loc main_arg1)) := by
  dsimp only [Gen.V, Gen.hostOps0]; after_results <;> rfl

end Cert.KernelIdeal.Found

end
-- ==== Proof.Whole.lean ====
/-
  The kernel's output array after the run, as one function of the program's arguments.

  The grid has ten points. Point `t` works on rows 1000·t … 1000·t + 999: it reads that block of the node
  features and of the aggregated features, the whole top and bottom halves of the transposed weight and
  the whole bias row, and writes that block of the output. Entry (p, q) of what it writes is, by the
  tile's arithmetic, the layer's linear stage at row 1000·t + p and channel q. The ten row blocks cover
  the array (row r lies in block r / 1000), so the array ends at the linear stage everywhere.
-/
import proofs.«118493_j76476187673102_1_alg».proof.Proof.Gen.KernelIdeal.Value
import proofs.«118493_j76476187673102_1_alg».proof.Proof.Tile
import proofs.«118493_j76476187673102_1_alg».proof.Proof.Found
import proofs.«118493_j76476187673102_1_alg».proof.Proof.Agg
import proofs.«118493_j76476187673102_1_alg».proof.Proof.SageLinear
import Idealize.ShloMosaic.Lib.Pipeline.Value
import Idealize.ShloMosaic.Lib.ValueIdx

noncomputable section

namespace Cert.KernelIdeal.Whole

open Cert.KernelIdeal Cert.KernelIdeal.Gen Cert.KernelIdeal.Value Cert.KernelIdeal.Found Cert.KernelIdeal.Tile
open Idealize.ShloMosaic Idealize.ShloMosaic.TcCoe Idealize.SL.Sem Idealize.ShloMosaic.ValueIdx Cert.SageLinear
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The aggregated neighbour features, as a function of the node features and the edge list. -/
abbrev agg (c : Dev nD) : S10000x256.Idx → EReal :=
  Cert.ReferenceIdeal.Read.val_main_v22 (F := Ideal) (m ((c : Thread nD τ).loc main_arg0)) (m ((c : Thread nD τ).loc main_arg1))

/-- The output array: the linear stage of the features, the aggregated features, the weight and the bias. -/
def out (c : Dev nD) : S10000x256.Idx → EReal :=
  linear (m ((c : Thread nD τ).loc main_arg0)) (agg m c) (m ((c : Thread nD τ).loc main_arg2)) (m ((c : Thread nD τ).loc main_arg3))

/-- The printed index maps over the grid: the row-blocked windows (features, aggregated features, output)
    sit at block (t, 0) at point t; the weight halves and the bias row stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row 1000·t + p of the array. -/
abbrev row (t : Fin cfg0.N) (p : Fin 1000) : Fin 10000 :=
  ⟨t.val * 1000 + p.val, by have := t.isLt; have hN : cfg0.N = 10 := N_0; have := p.isLt; omega⟩

/-- The feature block at point `t`, entry (p, k): the features at row 1000·t + p. -/
theorem features_at (c : Dev nD) (t : Fin cfg0.N) (p : Fin 1000) (k : Fin 256) :
    (iblk m c 0 t : Vec Ideal S1000x256 .f32) (ix2 p k)
      = (m ((c : Thread nD τ).loc main_arg0) : S10000x256.Idx → EReal) (ix2 (row t p) k) := by
  obtain ⟨e0, e1, -⟩ := block_indices t
  unfold iblk
  rw [View.read_apply]
  show V m c main_arg0 (((cfg0.win 0).blk t).view.emb (ix2 p k)) = _
  rw [V_main_arg0]
  refine congrArg (m ((c : Thread nD τ).loc main_arg0) : S10000x256.Idx → EReal) (funext fun a => Fin.ext ?_)
  match a with
  | ⟨0, _⟩ => show win0_0.index t (0 : Fin 2) * 1000 + 1 * p.val = t.val * 1000 + p.val; rw [e0]; omega
  | ⟨1, _⟩ => show win0_0.index t (1 : Fin 2) * 256 + 1 * k.val = k.val; rw [e1]; omega

/-- The aggregated block at point `t`, entry (p, k): the aggregated features at row 1000·t + p. -/
theorem aggregated_at (c : Dev nD) (t : Fin cfg0.N) (p : Fin 1000) (k : Fin 256) :
    (iblk m c 1 t : Vec Ideal S1000x256 .f32) (ix2 p k) = agg m c (ix2 (row t p) k) := by
  obtain ⟨-, -, e0, e1, -⟩ := block_indices t
  unfold iblk
  rw [View.read_apply]
  show V m c main_v22 (((cfg0.win 1).blk t).view.emb (ix2 p k)) = _
  rw [agg_eq]
  refine congrArg (agg m c) (funext fun a => Fin.ext ?_)
  match a with
  | ⟨0, _⟩ => show win0_1.index t (0 : Fin 2) * 1000 + 1 * p.val = t.val * 1000 + p.val; rw [e0]; omega
  | ⟨1, _⟩ => show win0_1.index t (1 : Fin 2) * 256 + 1 * k.val = k.val; rw [e1]; omega

/-- The top weight half at any point, entry (k, q): the weight at (q, k). -/
theorem top_blk_at (c : Dev nD) (t : Fin cfg0.N) (k q : Fin 256) :
    (iblk m c 2 t : Vec Ideal S256x256 .f32) (ix2 k q)
      = (m ((c : Thread nD τ).loc main_arg2) : S256x512.Idx → EReal) (ix2 q (lo k)) := by
  obtain ⟨-, -, -, -, e0, e1, -⟩ := block_indices t
  unfold iblk
  rw [View.read_apply]
  show V m c main_v24 (((cfg0.win 2).blk t).view.emb (ix2 k q)) = _
  refine Eq.trans (congrArg (V m c main_v24 : S256x256.Idx → EReal) (funext fun a => Fin.ext ?_)) (top_at m c k q)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- The bottom weight half at any point, entry (k, q): the weight at (q, 256 + k). -/
theorem bottom_blk_at (c : Dev nD) (t : Fin cfg0.N) (k q : Fin 256) :
    (iblk m c 3 t : Vec Ideal S256x256 .f32) (ix2 k q)
      = (m ((c : Thread nD τ).loc main_arg2) : S256x512.Idx → EReal) (ix2 q (hi k)) := by
  obtain ⟨-, -, -, -, -, -, e0, e1, -⟩ := block_indices t
  unfold iblk
  rw [View.read_apply]
  show V m c main_v25 (((cfg0.win 3).blk t).view.emb (ix2 k q)) = _
  refine Eq.trans (congrArg (V m c main_v25 : S256x256.Idx → EReal) (funext fun a => Fin.ext ?_)) (bottom_at m c k q)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- The bias row at any point, entry (0, q): the bias at q. -/
theorem bias_blk_at (c : Dev nD) (t : Fin cfg0.N) (q : Fin 256) :
    (iblk m c 4 t : Vec Ideal S1x256 .f32) (ix2 0 q)
      = (m ((c : Thread nD τ).loc main_arg3) : S256.Idx → EReal) (ix1 q) := by
  obtain ⟨-, -, -, -, -, -, -, -, e0, e1, -⟩ := block_indices t
  unfold iblk
  rw [View.read_apply]
  show V m c main_v26 (((cfg0.win 4).blk t).view.emb (ix2 0 q)) = _
  refine Eq.trans (congrArg (V m c main_v26 : S1x256.Idx → EReal) (funext fun a => Fin.ext ?_)) (row_at m c q)
  match a with
  | ⟨0, _⟩ => show win0_4.index t (0 : Fin 2) * 1 + 1 * 0 = 0; rw [e0]
  | ⟨1, _⟩ => show win0_4.index t (1 : Fin 2) * 256 + 1 * q.val = q.val; rw [e1]; omega

/-- What point `t` writes back is block `t` of the linear stage. -/
theorem flushed_eq (c : Dev nD) (t : Fin cfg0.N) :
    (dats m 0 c).flushed 5 t = ((cfg0.win 5).blk t).view.read (Elt Ideal) (out m c) := by
  obtain ⟨-, -, -, -, -, -, -, -, -, -, e0, e1⟩ := block_indices t
  rw [flushed5]
  unfold out0_5
  rw [View.canon_unit_zero zero_offsets]
  simp only [View.ld_unit_zero (S := S1000x256) zero_offsets, View.ld_unit_zero (S := S256x256) zero_offsets,
    View.ld_unit_zero (S := S1x256) zero_offsets]
  funext j
  obtain ⟨p, q, rfl⟩ : ∃ (p : Fin 1000) (q : Fin 256), j = ix2 p q := ⟨j 0, j 1, eq_ix2 j⟩
  show k0_pay1 (iblk m c 0 t) (iblk m c 1 t) (iblk m c 2 t) (iblk m c 3 t) (iblk m c 4 t) (ix2 p q)
    = out m c (((cfg0.win 5).blk t).view.emb (ix2 p q))
  have hrow : ((cfg0.win 5).blk t).view.emb (ix2 p q) = ix2 (row t p) q := funext fun a => Fin.ext (by
    match a with
    | ⟨0, _⟩ => show win0_5.index t (0 : Fin 2) * 1000 + 1 * p.val = t.val * 1000 + p.val; rw [e0]; omega
    | ⟨1, _⟩ => show win0_5.index t (1 : Fin 2) * 256 + 1 * q.val = q.val; rw [e1]; omega)
  rw [hrow]
  refine (tile_at (iblk m c 0 t) (iblk m c 1 t) (iblk m c 2 t) (iblk m c 3 t) (iblk m c 4 t) p q).trans ?_
  unfold out linear
  exact congrArg₂ (· + ·)
    (congrArg₂ (· + ·)
      (Finset.sum_congr rfl fun k _ => congrArg₂ (· * ·) (features_at m c t p k) (top_blk_at m c t k q))
      (Finset.sum_congr rfl fun k _ => congrArg₂ (· * ·) (aggregated_at m c t p k) (bottom_blk_at m c t k q)))
    (bias_blk_at m c t q)

/-- An index is in point `t`'s block iff each coordinate is in the block's range on its axis. -/
theorem mem_blk (t : Fin cfg0.N) (i : S10000x256.Idx) :
    i ∈ ((cfg0.win 5).blk t).view.set ↔ ∀ a : Fin 2, win0_5.index t a * S1000x256.size a ≤ (i a).val
      ∧ (i a).val < win0_5.index t a * S1000x256.size a + S1000x256.size a := by
  show i ∈ ((View.whole main_v27).slice (win0_5.rect t)).set ↔ _
  rw [View.set_slice_whole, Rect.mem_set_unit]
  exact Iff.rfl

/-- The ten row blocks cover the array: row r lies in the block of point r / 1000. -/
theorem cover (i : S10000x256.Idx) :
    ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 10 := N_0
  have ht : (i 0).val / 1000 < cfg0.N := by rw [hN]; omega
  obtain ⟨-, -, -, -, -, -, -, -, -, -, e0, e1⟩ := block_indices ⟨(i 0).val / 1000, ht⟩
  refine ⟨⟨(i 0).val / 1000, ht⟩, flush0_5 _, ?_⟩
  rw [mem_blk]
  intro a
  match a with
  | ⟨0, _⟩ =>
    show win0_5.index ⟨(i 0).val / 1000, ht⟩ (0 : Fin 2) * 1000 ≤ (i 0).val
      ∧ (i 0).val < win0_5.index ⟨(i 0).val / 1000, ht⟩ (0 : Fin 2) * 1000 + 1000
    rw [e0]; show (i 0).val / 1000 * 1000 ≤ (i 0).val ∧ (i 0).val < (i 0).val / 1000 * 1000 + 1000; omega
  | ⟨1, _⟩ =>
    show win0_5.index ⟨(i 0).val / 1000, ht⟩ (1 : Fin 2) * 256 ≤ (i 1).val
      ∧ (i 1).val < win0_5.index ⟨(i 0).val / 1000, ht⟩ (1 : Fin 2) * 256 + 256
    rw [e1]; omega

/-- The output array after the run is the linear stage. -/
theorem final (c : Dev nD) : (dats m 0 c).arrAt 5 cfg0.N = out m c :=
  (dats m 0 c).arrAt_eq_of_cover 5 (out m c) (fun t _ => flushed_eq m c t) cover

/-- The kernel's run: the result array ends at the linear stage, the arguments unchanged. -/
theorem run : θ_run defs (onTc (τ := τ) (main (F := Ideal))) ⟨m, fun _ => 0, ρ⟩ fun r => ∀ c : Dev nD,
      r.2.mem ((c : Thread nD τ).loc main_v27) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Whole

end
-- ==== Proof.lean ====
/-
  The certificate of a mean-aggregating graph layer: a tiled kernel against its dense reference, over the
  extended reals.

  Both programs first compute the aggregated neighbour features `agg` from the node features `h` and the
  edge list by the same chain of operations. The reference then joins `h` and `agg` side by side, multiplies
  the 10000 × 512 result by the transposed 256 × 512 weight `W` and adds the bias `b`. The kernel never joins
  them: it cuts the transposed weight into its top and bottom halves and, on each block of 1000 rows, adds
  the two products `h · top` and `agg · bottom` and the bias row. At entry (r, c) the reference's sum over
  512 columns, cut at column 256, is the kernel's two sums over 256 columns; cutting a finite sum needs only
  that addition is commutative and associative, so the two results agree on every extended real and the
  finiteness of the inputs is never used.

  The modules: `SageLinear` states the result as one function and the cut of the sum; `RefLinear` reads the
  reference's result as that function; `Tile` reads one stored tile of the kernel entry by entry; `Found`
  and `Agg` read the arrays the kernel's region finds; `Whole` puts the ten tiles together into the output
  array. The three frames are the generated ones (the reference's is its generated run with the result
  dropped), and the kernel's idealization rewrote nothing.
-/
import proofs.«118493_j76476187673102_1_alg».proof.Defs
import proofs.«118493_j76476187673102_1_alg».proof.Proof.Gen.Kernel
import proofs.«118493_j76476187673102_1_alg».proof.Proof.Gen.Kernel.Skeleton
import proofs.«118493_j76476187673102_1_alg».proof.Proof.Gen.Kernel.Launch
import proofs.«118493_j76476187673102_1_alg».proof.Proof.Gen.Kernel.Points
import proofs.«118493_j76476187673102_1_alg».proof.Proof.Gen.Kernel.Frame
import proofs.«118493_j76476187673102_1_alg».proof.Proof.Gen.KernelIdeal
import proofs.«118493_j76476187673102_1_alg».proof.Proof.Gen.KernelIdeal.Skeleton
import proofs.«118493_j76476187673102_1_alg».proof.Proof.Gen.KernelIdeal.Launch
import proofs.«118493_j76476187673102_1_alg».proof.Proof.Gen.KernelIdeal.Points
import proofs.«118493_j76476187673102_1_alg».proof.Proof.Gen.KernelIdeal.Frame
import proofs.«118493_j76476187673102_1_alg».proof.Proof.Gen.ReferenceIdeal
import proofs.«118493_j76476187673102_1_alg».proof.Proof.Gen.Pre_finite_inputs
import proofs.«118493_j76476187673102_1_alg».proof.Proof.Gen.KernelIdeal.Value
import proofs.«118493_j76476187673102_1_alg».proof.Proof.Gen.ReferenceIdeal.Run
import proofs.«118493_j76476187673102_1_alg».proof.Proof.Gen.ReferenceIdeal.Read
import proofs.«118493_j76476187673102_1_alg».proof.Proof.RefLinear
import proofs.«118493_j76476187673102_1_alg».proof.Proof.Whole
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, the kernel's output array and the reference's result are both
    the layer's linear stage of `h`, the aggregated features, `W` and `b`. -/
theorem algebraic : Cert.algebraic_KernelIdeal_ReferenceIdeal := by
  intro m ρ m' ρ' _ hagree
  refine ⟨fun c => Cert.KernelIdeal.Whole.out m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
